-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S4096 : Shape := ⟨1, ![4096]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x200 .f32) (main_arg1 : FVec F S4096x200 .f32) (main_arg2 : IVec S4096 32) : IVec S_ 1 :=
  let main_v0 : FVec F S4096x200 .f32 := Host.absf main_arg0
  let main_cst : FVec F S_ .f32 := constant S_ .f32 0x7F800000#32
  let main_v1 : FVec F S4096x200 .f32 := broadcastInDim S4096x200 ![] bcast_S_S4096x200 main_cst
  let main_v2 : IVec S4096x200 1 := cmpf .olt main_v0 main_v1
  let main_c : IVec S_ 1 := constantI S_ 1 1#1
  let main_v3 : IVec S_ 1 := (fun x v => Host.reduce IntOp.andi x v reducesTo_S4096x200_S_d0_1 h_S_) main_v2 main_c
  let main_v4 : FVec F S4096x200 .f32 := Host.absf main_arg1
  let main_cst_0 : FVec F S_ .f32 := constant S_ .f32 0x7F800000#32
  let main_v5 : FVec F S4096x200 .f32 := broadcastInDim S4096x200 ![] bcast_S_S4096x200 main_cst_0
  let main_v6 : IVec S4096x200 1 := cmpf .olt main_v4 main_v5
  let main_c_1 : IVec S_ 1 := constantI S_ 1 1#1
  let main_v7 : IVec S_ 1 := (fun x v => Host.reduce IntOp.andi x v reducesTo_S4096x200_S_d0_1 h_S_) main_v6 main_c_1
  let main_v8 : IVec S_ 1 := andi main_v3 main_v7
  let main_c_2 : IVec S_ 32 := constantI S_ 32 200#32
  let main_v9 : IVec S4096 32 := broadcastInDim S4096 ![] bcast_S_S4096 main_c_2
  let main_v10 : IVec S4096 1 := cmpi .sle main_arg2 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  main_v12
-- ==== Kernel.lean ====
abbrev S4096x200 : Shape := ⟨2, ![4096, 200]⟩
abbrev S4096 : Shape := ⟨1, ![4096]⟩
abbrev S_ : Shape := ⟨0, ![]⟩
abbrev S4096x256 : Shape := ⟨2, ![4096, 256]⟩
abbrev S4096x1 : Shape := ⟨2, ![4096, 1]⟩
abbrev S16x256 : Shape := ⟨2, ![16, 256]⟩
abbrev S16x1 : Shape := ⟨2, ![16, 1]⟩
abbrev S16x256x1 : Shape := ⟨3, ![16, 256, 1]⟩
abbrev S16x1x256 : Shape := ⟨3, ![16, 1, 256]⟩
abbrev S16x256x256 : Shape := ⟨3, ![16, 256, 256]⟩
abbrev S16 : Shape := ⟨1, ![16]⟩

abbrev nBuf : Space → Nat
  | .hbm => 15
  | .vmem => 8
  | .smem => 0
  | _ => 0

abbrev bufTy : (tb : Table) → Fin (tcTables nBuf tb) → BufTy
  | .hbm, ⟨0, _⟩ => ⟨S4096x200, .f32⟩
  | .hbm, ⟨1, _⟩ => ⟨S4096x200, .f32⟩
  | .hbm, ⟨2, _⟩ => ⟨S4096, .i32⟩
  | .hbm, ⟨3, _⟩ => ⟨S_, .i32⟩
  | .hbm, ⟨4, _⟩ => ⟨S_, .f32⟩
  | .hbm, ⟨5, _⟩ => ⟨S4096x256, .f32⟩
  | .hbm, ⟨6, _⟩ => ⟨S_, .i32⟩
  | .hbm, ⟨7, _⟩ => ⟨S_, .f32⟩
  | .hbm, ⟨8, _⟩ => ⟨S4096x256, .f32⟩
  | .hbm, ⟨9, _⟩ => ⟨S4096x1, .i32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x1, .i32⟩
  | .local _ .vmem, ⟨5, _⟩ => ⟨S16x1, .i32⟩
  | .local _ .vmem, ⟨6, _⟩ => ⟨S16x1, .f32⟩
  | .local _ .vmem, ⟨7, _⟩ => ⟨S16x1, .f32⟩
  | _, _ => ⟨S4096x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S4096x200_S4096x256_000_0560 : S4096x200.Pads (![0, 0] : Fin 2 → Nat) ![0, 56] ![0, 0] S4096x256
  h_S_ : 0 < S_.numel
  shapeCasts_S4096_S4096x1 : S4096.ShapeCasts S4096x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  iota_S16x256_d1_w32 : S16x256.Iotas .tc 32 [1]
  broadcasts_S16x1_S16x256 : S16x1.Broadcasts S16x256
  natLt_1_32 : 1 < 32
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  reduces_S16x256x256_S16x256 : S16x256x256.Reduces [2] S16x256
  reduces_S16x256_S16 : S16x256.Reduces [1] S16
  shapeCasts_S16_S16x1 : S16.ShapeCasts S16x1
  reducesTo_S4096x1_S_d0_1 : S4096x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S4096x256.size a
  hwx0_0 : ∀ i : grid0.Coords, EltTy.bits .f32 = 32 ∨ (Rect.block (s := S4096x256) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S4096x256.size a
  hwx0_1 : ∀ i : grid0.Coords, EltTy.bits .f32 = 32 ∨ (Rect.block (s := S4096x256) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S4096x1.size a
  hwx0_2 : ∀ i : grid0.Coords, EltTy.bits .i32 = 32 ∨ (Rect.block (s := S4096x1) S16x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S4096x1.size a
  hwx0_3 : ∀ i : grid0.Coords, EltTy.bits .f32 = 32 ∨ (Rect.block (s := S4096x1) S16x1.size (cc0_transform_3 i) (hinb0_3 i)).WholeWords (EltTy.packing .f32)

variable [Facts₀]

abbrev win0_0 : Pipeline.Window sig grid0 :=
  Pipeline.Window.ofSpec (Memref.whole main_v0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x200 : Shape := ⟨2, ![4096, 200]⟩
abbrev S4096 : Shape := ⟨1, ![4096]⟩
abbrev S200 : Shape := ⟨1, ![200]⟩
abbrev S1x200 : Shape := ⟨2, ![1, 200]⟩
abbrev S4096x1 : Shape := ⟨2, ![4096, 1]⟩
abbrev S4096x200x1 : Shape := ⟨3, ![4096, 200, 1]⟩
abbrev S4096x1x200 : Shape := ⟨3, ![4096, 1, 200]⟩
abbrev S4096x200x200 : Shape := ⟨3, ![4096, 200, 200]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x200, .f32⟩
  | .hbm, ⟨1, _⟩ => ⟨S4096x200, .f32⟩
  | .hbm, ⟨2, _⟩ => ⟨S4096, .i32⟩
  | .hbm, ⟨3, _⟩ => ⟨S200, .i32⟩
  | .hbm, ⟨4, _⟩ => ⟨S1x200, .i32⟩
  | .hbm, ⟨5, _⟩ => ⟨S4096x1, .i32⟩
  | .hbm, ⟨6, _⟩ => ⟨S4096x200, .i32⟩
  | .hbm, ⟨7, _⟩ => ⟨S4096x200, .i32⟩
  | .hbm, ⟨8, _⟩ => ⟨S4096x200, .i1⟩
  | .hbm, ⟨9, _⟩ => ⟨S4096x200x1, .f32⟩
  | .hbm, ⟨10, _⟩ => ⟨S4096x1x200, .f32⟩
  | .hbm, ⟨11, _⟩ => ⟨S4096x200x200, .f32⟩
  | .hbm, ⟨12, _⟩ => ⟨S4096x200x200, .f32⟩
  | .hbm, ⟨13, _⟩ => ⟨S4096x200x200, .f32⟩
  | .hbm, ⟨14, _⟩ => ⟨S_, .f32⟩
  | .hbm, ⟨15, _⟩ => ⟨S4096x200x200, .f32⟩
  | .hbm, ⟨16, _⟩ => ⟨S4096x200x200, .f32⟩
  | .hbm, ⟨17, _⟩ => ⟨S4096x200x200, .f32⟩
  | .hbm, ⟨18, _⟩ => ⟨S4096x200x200, .f32⟩
  | .hbm, ⟨19, _⟩ => ⟨S_, .f32⟩
  | .hbm, ⟨20, _⟩ => ⟨S4096x200x200, .f32⟩
  | .hbm, ⟨21, _⟩ => ⟨S4096x200x200, .f32⟩
  | .hbm, ⟨22, _⟩ => ⟨S_, .f32⟩
  | .hbm, ⟨23, _⟩ => ⟨S4096x200x200, .f32⟩
  | .hbm, ⟨24, _⟩ => ⟨S4096x200x200, .f32⟩
  | .hbm, ⟨25, _⟩ => ⟨S4096x200x1, .i1⟩
  | .hbm, ⟨26, _⟩ => ⟨S4096x1x200, .i1⟩
  | .hbm, ⟨27, _⟩ => ⟨S4096x200x200, .i1⟩
  | .hbm, ⟨28, _⟩ => ⟨S4096x200x200, .i1⟩
  | .hbm, ⟨29, _⟩ => ⟨S4096x200x200, .i1⟩
  | .hbm, ⟨30, _⟩ => ⟨S_, .f32⟩
  | .hbm, ⟨31, _⟩ => ⟨S4096x200x200, .f32⟩
  | .hbm, ⟨32, _⟩ => ⟨S4096x200x200, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_call0_v0 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S4096_S4096x1_0 : S4096.BroadcastsInDim S4096x1 (![0] : Fin 1 → Fin S4096x1.rank)
  bcast_S1x200_S4096x200_0_1 : S1x200.BroadcastsInDim S4096x200 (![0, 1] : Fin 2 → Fin S4096x200.rank)
  bcast_S4096x1_S4096x200_0_1 : S4096x1.BroadcastsInDim S4096x200 (![0, 1] : Fin 2 → Fin S4096x200.rank)
  bcast_S4096x200_S4096x200x1_0_1 : S4096x200.BroadcastsInDim S4096x200x1 (![0, 1] : Fin 2 → Fin S4096x200x1.rank)
  bcast_S4096x200_S4096x1x200_0_2 : S4096x200.BroadcastsInDim S4096x1x200 (![0, 2] : Fin 2 → Fin S4096x1x200.rank)
  bcast_S4096x200x1_S4096x200x200_0_1_2 : S4096x200x1.BroadcastsInDim S4096x200x200 (![0, 1, 2] : Fin 3 → Fin S4096x200x200.rank)
  bcast_S4096x1x200_S4096x200x200_0_1_2 : S4096x1x200.BroadcastsInDim S4096x200x200 (![0, 1, 2] : Fin 3 → Fin S4096x200x200.rank)
  bcast_S_S4096x200x200 : S_.BroadcastsInDim S4096x200x200 (![] : Fin 0 → Fin S4096x200x200.rank)
  reducesTo_S4096x200x200_S4096_d1_2 : S4096x200x200.ReducesTo [1, 2] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.Spec.lean ====
/-
  The pairwise sigmoid-AUC loss of a batch of users, on the extended reals.

  User `b` has 200 slots of positive scores, 200 slots of negative scores and a count `c`; slot `n` is in use when
  `n < c` (a signed comparison of 32-bit words). The user's loss is
      1 - (∑ over the pairs (i, j) of slots in use of σ(pos i - neg j)) / (c · c),
  with σ the logistic function, and the result is the sum of the users' losses divided by the number of users.

  A second form of the pair sum ranges over 256 slots and multiplies each term by the product of the two slots' 0/1
  masks instead of leaving it out: the form a computation takes when the rows are padded to 256 entries.
-/
import Idealize.ShloMosaic.PureOps.Ideal
import Idealize.ShloMosaic.PureOps.Ideal.Laws
import Idealize.ShloMosaic.Lib.ValueIdx

noncomputable section

open scoped BigOperators

namespace Cert.Sauc

open Idealize.ShloMosaic Idealize.ShloMosaic.ValueIdx

/-- Slot `n` is among the first `c`: the signed comparison `n < c` of 32-bit words, as one bit. -/
def slot (n : Nat) (c : BitVec 32) : BitVec 1 := IntOp.cmpi .slt (BitVec.ofNat 32 n) c

/-- The count as a number. -/
def cntR (c : BitVec 32) : EReal := ((c.toInt : ℝ) : EReal)

/-- The sum, over the pairs of slots in use, of the logistic of the difference of the two scores. -/
def pairSum (pos neg : Fin 200 → EReal) (c : BitVec 32) : EReal :=
  ∑ i : Fin 200, ∑ j : Fin 200, if slot i.val c = 1#1 ∧ slot j.val c = 1#1 then Ideal.logistic (pos i - neg j) else 0

/-- One user's loss. -/
def rowLoss (pos neg : Fin 200 → EReal) (c : BitVec 32) : EReal :=
  1 - Ideal.div (pairSum pos neg c) (cntR c * cntR c)

/-- The mean of the users' losses: their sum divided by 4096 (the f32 word of 4096.0, the same on both sides). -/
def meanLoss (pos neg : (⟨2, ![4096, 200]⟩ : Shape).Idx → EReal) (cnt : (⟨1, ![4096]⟩ : Shape).Idx → BitVec 32) : EReal :=
  Ideal.div (∑ b : Fin 4096, rowLoss (fun i => pos (ix2 b i)) (fun j => neg (ix2 b j)) (cnt (ix1 b)))
    (Ideal.ofBits .f32 0x45800000#32)

/-- A slot's mask as a number: 1 when the slot is in use, else 0 (the bit widened to a word and read signed). -/
def mask (n : Nat) (c : BitVec 32) : EReal := ((((slot n c).setWidth 32).toInt : ℝ) : EReal)

/-- The pair sum over 256 slots, every term multiplied by the two masks. -/
def padPairSum (X Y : Fin 256 → EReal) (c : BitVec 32) : EReal :=
  ∑ i : Fin 256, ∑ j : Fin 256, Ideal.logistic ((X i - Y j) * 1) * (mask i.val c * mask j.val c)

/-- One user's loss in the padded form. -/
def padRowLoss (X Y : Fin 256 → EReal) (c : BitVec 32) : EReal :=
  1 - Ideal.div (padPairSum X Y c) (cntR c * cntR c)

/-- A row of 200 scores padded with zeros to 256. -/
def padRow (x : Fin 200 → EReal) : Fin 256 → EReal := fun i => if h : i.val < 200 then x ⟨i.val, h⟩ else 0

/-- The f32 word of 1.0 is the number one. -/
theorem ofBits_one : Ideal.ofBits .f32 0x3F800000#32 = 1 := IdealRules.sign_bit.ideal_onePat .f32

end Cert.Sauc

end
-- ==== Proof.PreFacts.lean ====
/-
  What the precondition says of the counts.

  The precondition is a conjunction of bits whose last conjunct is an "all" over the array of the bits c ≤ 200 (a signed
  comparison of 32-bit words), one per count word. The whole being 1, that conjunct is 1, so every one of its bits is 1:
  every count is at most 200 as a signed integer.
-/
import proofs.«106455_j27212912787875_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Sauc.Pre

open Idealize.ShloMosaic Idealize.ShloMosaic.ValueIdx

/-- The count bound: every count word is at most 200 as a signed integer. -/
theorem pre_counts (x0 x1 : FVec Ideal Cert.Pre_finite_inputs.S4096x200 .f32) (x2 : IVec Cert.Pre_finite_inputs.S4096 32)
    (h : Cert.Pre_finite_inputs.fn (F := Ideal) x0 x1 x2 = fun _ => 1#1) : ∀ b, (x2 b).toInt ≤ 200 := by
  -- the scalar shape has one index
  haveI : Subsingleton Cert.Pre_finite_inputs.S_.Idx := ⟨fun _ _ => funext fun d => d.elim0⟩
  have h0 := congrFun h ValueIdx.ix0
  dsimp only [Cert.Pre_finite_inputs.fn] at h0
  -- the result bit is a conjunction whose last conjunct is the "all" bit of the counts' comparisons
  obtain ⟨-, hc⟩ := IntOp.andi_eq_one.1 h0
  intro b
  -- that bit being 1, the comparison at count b is 1
  have e : IntOp.cmpi .sle (x2 b) (200#32) = 1#1 := Host.reduce_andi_all _ _ _ _ _ hc b
  have hle := IntOp.cmpi_sle.1 e
  have h200 : (200#32 : BitVec 32).toInt = 200 := by decide
  rw [h200] at hle
  exact hle

end Cert.Sauc.Pre

end
-- ==== Proof.LibIdxSums.lean ====
/-
  Sums over the index set of a rank-3 or rank-4 array, taken coordinate by coordinate, and the host's add-reductions
  read through them at the exact values: a reduction of a [n0, n1, n2, n3] array over the axes 0, 2, 3 at class `k`
  is the initial value plus the threefold sum over the other coordinates of the entries (a, k, c, d); a reduction of
  a [n0, n1, n2] array over all its axes is the initial value plus the threefold sum over all coordinates.
-/
import Idealize.ShloMosaic.Lib.ValueIdx
import Idealize.ShloMosaic.PureOps.Ideal.Laws

noncomputable section

open scoped BigOperators

namespace Cert.Lib.IdxSums

open Idealize.ShloMosaic Idealize.ShloMosaic.ValueIdx

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the rank-4 indices whose second coordinate is `k`: the threefold sum over the other coordinates. -/
theorem sum_filter_axis1 {M : Type*} [AddCommMonoid M] {n0 n1 n2 n3 : Nat} (x : (⟨4, ![n0, n1, n2, n3]⟩ : Shape).Idx → M)
    (k : Fin n1) (p : (⟨4, ![n0, n1, n2, n3]⟩ : Shape).Idx → Prop) [DecidablePred p] (hp : ∀ i, p i ↔ i 1 = k) :
    ∑ i ∈ Finset.univ.filter p, x i = ∑ a : Fin n0, ∑ c : Fin n2, ∑ d : Fin n3, x (ix4 a k c d) := by
  rw [Finset.sum_filter, sum_idx4]
  refine Finset.sum_congr rfl fun a _ => ?_
  rw [Finset.sum_eq_single k]
  · refine Finset.sum_congr rfl fun c _ => Finset.sum_congr rfl fun d _ => ?_
    rw [if_pos ((hp _).mpr rfl)]
  · intro b _ hb
    refine Finset.sum_eq_zero fun c _ => Finset.sum_eq_zero fun d _ => ?_
    rw [if_neg (fun h => hb ((hp _).mp h))]
  · intro h
    exact absurd (Finset.mem_univ k) h

/-- Dropping the axes 0, 2, 3 of a rank-4 index leaves its second coordinate. -/
theorem drop_023_iff {n0 n1 n2 n3 : Nat} (h : (⟨4, ![n0, n1, n2, n3]⟩ : Shape).ReducesTo [0, 2, 3] ⟨1, ![n1]⟩)
    (i : (⟨4, ![n0, n1, n2, n3]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0, 2, 3 of a rank-4 array, at class `k`. -/
theorem hostSum_023 {n0 n1 n2 n3 : Nat} (h : (⟨4, ![n0, n1, n2, n3]⟩ : Shape).ReducesTo [0, 2, 3] ⟨1, ![n1]⟩)
    (x : (⟨4, ![n0, n1, n2, n3]⟩ : Shape).Idx → EReal) (init : EReal) (k : Fin n1) :
    Ideal.hostReduceAdd h x init (ix1 k) = init + ∑ a : Fin n0, ∑ c : Fin n2, ∑ d : Fin n3, x (ix4 a k c d) := by
  unfold Ideal.hostReduceAdd
  rw [sum_filter_axis1 x k _ (fun i => drop_023_iff h i k)]

/-- The host's sum over every axis of a rank-3 array. -/
theorem hostSum_all3 {n0 n1 n2 : Nat} (h : (⟨3, ![n0, n1, n2]⟩ : Shape).ReducesTo [0, 1, 2] ⟨0, ![]⟩)
    (x : (⟨3, ![n0, n1, n2]⟩ : Shape).Idx → EReal) (init : EReal) (j : (⟨0, ![]⟩ : Shape).Idx) :
    Ideal.hostReduceAdd h x init j = init + ∑ a : Fin n0, ∑ b : Fin n1, ∑ c : Fin n2, x (ix3 a b c) := by
  rw [Ideal.hostReduceAdd_total h (fun b => b.elim0) x init j, sum_idx3]

end Cert.Lib.IdxSums

end
-- ==== Proof.LibAxisSums.lean ====
/-
  Sums over index sets, coordinate by coordinate, and the host's add-reduction of a rank-3 array over its last two axes,
  at the exact values.

  * A sum over the index set of a vector [n] is the sum over its coordinate; a sum over the index set of a column
    [n, 1] is the sum over its rows.
  * The host's add-reduction of an [n0, n1, n2] array over the axes 1 and 2, at row k, is the initial value plus the
    double sum over (b, c) of the entries (k, b, c): the indices that reduce to row k are those whose first coordinate
    is k.
-/
import proofs.«106455_j27212912787875_1_alg».proof.Proof.LibIdxSums
import Idealize.ShloMosaic.Lib.ValueIdx
import Idealize.ShloMosaic.PureOps.Ideal.Laws

noncomputable section

open scoped BigOperators

namespace Cert.Lib.AxisSums

open Idealize.ShloMosaic Idealize.ShloMosaic.ValueIdx Cert.Lib.IdxSums

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum over the index set of a column [n, 1] is the sum over its rows. -/
theorem sum_column {M : Type*} [AddCommMonoid M] {n : Nat} (f : (⟨2, ![n, 1]⟩ : Shape).Idx → M) :
    ∑ i, f i = ∑ r : Fin n, f (ix2 r (0 : Fin 1)) := by
  rw [sum_idx2]
  exact Finset.sum_congr rfl fun r _ => Fin.sum_univ_one _

/-- The sum over the rank-3 indices whose first coordinate is `k`: the double sum over the other coordinates. -/
theorem sum_filter_axis0 {M : Type*} [AddCommMonoid M] {n0 n1 n2 : Nat} (x : (⟨3, ![n0, n1, n2]⟩ : Shape).Idx → M)
    (k : Fin n0) (p : (⟨3, ![n0, n1, n2]⟩ : Shape).Idx → Prop) [DecidablePred p] (hp : ∀ i, p i ↔ i 0 = k) :
    ∑ i ∈ Finset.univ.filter p, x i = ∑ b : Fin n1, ∑ c : Fin n2, x (ix3 k b c) := by
  rw [Finset.sum_filter, sum_idx3, Finset.sum_eq_single k]
  · refine Finset.sum_congr rfl fun b _ => Finset.sum_congr rfl fun c _ => ?_
    rw [if_pos ((hp _).mpr rfl)]
  · intro a _ ha
    refine Finset.sum_eq_zero fun b _ => Finset.sum_eq_zero fun c _ => ?_
    rw [if_neg (fun h => ha ((hp _).mp h))]
  · intro h
    exact absurd (Finset.mem_univ k) h

/-- Dropping the axes 1, 2 of a rank-3 index leaves its first coordinate. -/
theorem drop_12_iff {n0 n1 n2 : Nat} (h : (⟨3, ![n0, n1, n2]⟩ : Shape).ReducesTo [1, 2] ⟨1, ![n0]⟩)
    (i : (⟨3, ![n0, n1, n2]⟩ : Shape).Idx) (k : Fin n0) : h.drop i = ix1 k ↔ i 0 = k := by
  constructor
  · intro e
    have := congrArg (fun j : (⟨1, ![n0]⟩ : Shape).Idx => (j 0).val) e
    exact Fin.ext this
  · intro e
    funext b
    match b with
    | ⟨0, _⟩ => exact Fin.ext (congrArg Fin.val e)

/-- The host's sum over the axes 1, 2 of a rank-3 array, at row `k`: the initial value plus the double sum of the
    row's entries. -/
theorem hostSum_12 {n0 n1 n2 : Nat} (h : (⟨3, ![n0, n1, n2]⟩ : Shape).ReducesTo [1, 2] ⟨1, ![n0]⟩)
    (x : (⟨3, ![n0, n1, n2]⟩ : Shape).Idx → EReal) (init : EReal) (k : Fin n0) :
    Ideal.hostReduceAdd h x init (ix1 k) = init + ∑ b : Fin n1, ∑ c : Fin n2, x (ix3 k b c) := by
  unfold Ideal.hostReduceAdd
  rw [sum_filter_axis0 x k _ (fun i => drop_12_iff h i k)]

end Cert.Lib.AxisSums

end
-- ==== Proof.RefValue.lean ====
/-
  The reference program's result is the mean loss of the specification.

  The program is read one operation at a time, outermost first. Its last three operations are the division by the
  number of users, the sum over the users, and one minus a quotient; the quotient's numerator is a sum over two of the
  three axes of an array whose entry at (b, i, j) is the logistic of the difference of two scores when both slots are in
  use and zero otherwise, which is the specification's pair sum term by term.
-/
import proofs.«106455_j27212912787875_1_alg».proof.Proof.Gen.ReferenceIdeal.Read
import proofs.«106455_j27212912787875_1_alg».proof.Proof.Spec
import proofs.«106455_j27212912787875_1_alg».proof.Proof.LibIdxSums
import proofs.«106455_j27212912787875_1_alg».proof.Proof.LibAxisSums

noncomputable section

open scoped BigOperators

namespace Cert.Sauc.Ref

open Cert.ReferenceIdeal Cert.ReferenceIdeal.Gen Cert.ReferenceIdeal.Read
open Idealize.ShloMosaic Idealize.ShloMosaic.ValueIdx Cert.Sauc
open Cert.Lib.IdxSums Cert.Lib.AxisSums

/-! ## Small facts about the scalars -/

/-- Dividing by one changes nothing, at every extended real. -/
theorem div_one_eq (x : EReal) : Ideal.div x 1 = x := by
  unfold Ideal.div
  rw [if_neg one_ne_zero, inv_one, mul_one]

/-- The conjunction of two bits is set exactly when both are. -/
theorem and_eq_one_iff (p q : BitVec 1) : IntOp.andi p q = 1#1 ↔ p = 1#1 ∧ q = 1#1 := by
  revert p q
  decide

/-! ## The program's index maps, at an index given by its coordinates -/

/-- The positive score read at (b, i, j) is the one at (b, i). -/
theorem idx_pos (b : Fin 4096) (i j : Fin 200) : idx_main_v6 (idx_main_v8 (ix3 b i j)) = ix2 b i :=
  funext fun d => match d with | ⟨0, _⟩ => rfl | ⟨1, _⟩ => rfl

/-- The negative score read at (b, i, j) is the one at (b, j). -/
theorem idx_neg (b : Fin 4096) (i j : Fin 200) : idx_main_v7 (idx_main_v9 (ix3 b i j)) = ix2 b j :=
  funext fun d => match d with | ⟨0, _⟩ => rfl | ⟨1, _⟩ => rfl

/-- The count read at (b, n) is user b's. -/
theorem idx_cnt (b : Fin 4096) (n : Fin 200) : idx_main_v2 (idx_main_v4 (ix2 b n)) = ix1 b :=
  funext fun d => match d with | ⟨0, _⟩ => rfl

/-- The comparison at (b, n): is slot n among user b's first ones. -/
theorem v5_at (x2 : (⟨S4096, .i32⟩ : BufTy).Contents (Elt Ideal)) (b : Fin 4096) (n : Fin 200) :
    val_main_v5 (F := Ideal) x2 (ix2 b n) = slot n.val (x2 (ix1 b)) := by
  rw [val_main_v5_apply, val_main_v3_apply, val_main_v1_apply, val_main_v0_apply, val_main_v4_apply, val_main_v2_apply,
    idx_cnt]
  rfl

/-- The row mask at (b, i, j) is the comparison at (b, i). -/
theorem idx_rowMask (b : Fin 4096) (i j : Fin 200) : idx_main_v19 (idx_main_v21 (ix3 b i j)) = ix2 b i :=
  funext fun d => match d with | ⟨0, _⟩ => rfl | ⟨1, _⟩ => rfl

/-- The column mask at (b, i, j) is the comparison at (b, j). -/
theorem idx_colMask (b : Fin 4096) (i j : Fin 200) : idx_main_v20 (idx_main_v22 (ix3 b i j)) = ix2 b j :=
  funext fun d => match d with | ⟨0, _⟩ => rfl | ⟨1, _⟩ => rfl

/-- The logistic term at (b, i, j): one over one plus the exponential of minus the difference of the two scores. -/
theorem v18_at (x0 x1 : (⟨S4096x200, .f32⟩ : BufTy).Contents (Elt Ideal)) (b : Fin 4096) (i j : Fin 200) :
    val_main_v18 (F := Ideal) x0 x1 (ix3 b i j) = Ideal.logistic (x0 (ix2 b i) - x1 (ix2 b j)) := by
  rw [val_main_v18_apply, val_main_v17_apply, val_main_cst_1_apply, val_main_v16_apply, val_main_v15_apply,
    val_main_cst_0_apply, val_main_v14_apply, val_main_v13_apply, val_main_v12_apply, val_main_v11_apply,
    val_main_cst_apply, val_main_v10_apply, val_main_v8_apply, val_main_v6_apply, val_main_v9_apply, val_main_v7_apply,
    idx_pos, idx_neg]
  simp only [Ideal.hostDivf_def, Ideal.ofBits_def, Ideal.addf_def, Ideal.subf_def, Ideal.hostUnary_exp_def,
    Ideal.hostNegf_def, Ideal.negf_def, ofBits_one, div_one_eq]
  rfl

/-- The masked term at (b, i, j): the logistic term when both slots are in use, else zero. -/
theorem v24_at (x0 x1 : (⟨S4096x200, .f32⟩ : BufTy).Contents (Elt Ideal)) (x2 : (⟨S4096, .i32⟩ : BufTy).Contents (Elt Ideal))
    (b : Fin 4096) (i j : Fin 200) :
    val_main_v24 (F := Ideal) x0 x1 x2 (ix3 b i j)
      = if slot i.val (x2 (ix1 b)) = 1#1 ∧ slot j.val (x2 (ix1 b)) = 1#1
          then Ideal.logistic (x0 (ix2 b i) - x1 (ix2 b j)) else 0 := by
  rw [val_main_v24_apply, val_main_v23_apply, val_main_v21_apply, val_main_v19_apply, idx_rowMask, val_main_v22_apply,
    val_main_v20_apply, idx_colMask, v5_at, v5_at, v18_at, val_main_call0_v0_apply, val_main_cst_2_apply]
  show (if IntOp.andi _ _ = 1#1 then _ else Ideal.ofBits .f32 0x00000000#32) = _
  rw [Ideal.ofBits_zero_f32]
  exact if_congr (and_eq_one_iff _ _) rfl rfl

/-! ## The stages after the masked term -/

/-- The sum over the last two axes at user b is the specification's pair sum of that user's rows. -/
theorem v25_at (x0 x1 : (⟨S4096x200, .f32⟩ : BufTy).Contents (Elt Ideal)) (x2 : (⟨S4096, .i32⟩ : BufTy).Contents (Elt Ideal))
    (b : Fin 4096) :
    val_main_v25 (F := Ideal) x0 x1 x2 (ix1 b)
      = pairSum (fun i => x0 (ix2 b i)) (fun j => x1 (ix2 b j)) (x2 (ix1 b)) := by
  unfold val_main_v25
  simp only [Host.reduceAdd, Ideal.hostReduceAdd_def]
  rw [hostSum_12, val_main_cst_3_apply]
  show Ideal.ofBits .f32 0x00000000#32 + _ = _
  rw [Ideal.ofBits_zero_f32, zero_add]
  unfold pairSum
  exact Finset.sum_congr rfl fun i _ => Finset.sum_congr rfl fun j _ => v24_at x0 x1 x2 b i j

/-- One minus the pair sum over the squared count, at user b, is that user's loss. -/
theorem v30_at (x0 x1 : (⟨S4096x200, .f32⟩ : BufTy).Contents (Elt Ideal)) (x2 : (⟨S4096, .i32⟩ : BufTy).Contents (Elt Ideal))
    (b : Fin 4096) :
    val_main_v30 (F := Ideal) x0 x1 x2 (ix1 b)
      = rowLoss (fun i => x0 (ix2 b i)) (fun j => x1 (ix2 b j)) (x2 (ix1 b)) := by
  rw [val_main_v30_apply, val_main_v29_apply, val_main_cst_4_apply, val_main_v28_apply, v25_at, val_main_v27_apply,
    val_main_v26_apply]
  simp only [Ideal.hostDivf_def, Ideal.ofBits_def, Ideal.subf_def, Ideal.mulf_def, ofBits_one]
  rfl

/-- The reference's result, as a function of the three argument arrays, is the mean loss: the division by the word of
    4096.0 of the sum (from zero) over the users of their losses. No hypothesis on the inputs is needed. -/
theorem ref_eq (x0 x1 : (⟨S4096x200, .f32⟩ : BufTy).Contents (Elt Ideal)) (x2 : (⟨S4096, .i32⟩ : BufTy).Contents (Elt Ideal)) :
    val_main_v32 (F := Ideal) x0 x1 x2 = fun _ => meanLoss x0 x1 x2 := by
  funext i
  rw [val_main_v32_apply, val_main_v31_apply, val_main_cst_5_apply, val_main_cst_6_apply]
  simp only [Ideal.hostDivf_def, Ideal.ofBits_def, Ideal.ofBits_zero_f32, zero_add]
  unfold meanLoss
  rw [sum_idx1]
  exact congrArg (fun s => Ideal.div s (Ideal.ofBits .f32 0x45800000#32))
    (Finset.sum_congr rfl fun b _ => v30_at x0 x1 x2 b)

end Cert.Sauc.Ref

end
-- ==== Proof.Law.lean ====
/-
  The padded form of a user's loss equals the plain form.

  The padded pair sum ranges over 256 x 256 slots and multiplies every term by the two slots' 0/1 masks. A slot from 200
  on is never in use when the count is at most 200, so its mask is 0 and its terms vanish (x * 0 = 0 for every extended
  real x); on the first 200 slots the padded rows are the rows themselves, a term whose two masks are 1 is the logistic
  term itself (x * 1 = x), and a term with a mask 0 is 0, which is what the plain sum puts there.
-/
import proofs.«106455_j27212912787875_1_alg».proof.Proof.Spec

noncomputable section

open scoped BigOperators

namespace Cert.Sauc

open Idealize.ShloMosaic

/-- A one-bit word is 0 or 1. -/
theorem bit_zero_or_one : ∀ b : BitVec 1, b = 0#1 ∨ b = 1#1 := by decide

/-- The bit 0 widened to a word and read signed is the integer 0. -/
theorem toInt_setWidth_bit_zero : ((0#1 : BitVec 1).setWidth 32).toInt = 0 := by decide

/-- The bit 1 widened to a word and read signed is the integer 1. -/
theorem toInt_setWidth_bit_one : ((1#1 : BitVec 1).setWidth 32).toInt = 1 := by decide

/-- The mask of a slot is 1 when the slot is in use and 0 when it is not. -/
theorem mask_eq_ite (n : Nat) (c : BitVec 32) : mask n c = if slot n c = 1#1 then 1 else 0 := by
  unfold mask
  rcases bit_zero_or_one (slot n c) with h | h
  · rw [h, toInt_setWidth_bit_zero, if_neg (by decide)]; simp
  · rw [h, toInt_setWidth_bit_one, if_pos rfl]; simp

/-- A slot number below 256, as a 32-bit word read signed, is itself. -/
theorem toInt_ofNat_slot (n : Nat) (hn : n < 256) : (BitVec.ofNat 32 n).toInt = (n : ℤ) := by
  rw [BitVec.toInt_eq_toNat_cond, BitVec.toNat_ofNat]
  have h : n % 2 ^ 32 = n := Nat.mod_eq_of_lt (by omega)
  rw [h, if_pos (by omega)]

/-- A slot whose number is at least the count (read signed) is not in use. -/
theorem slot_eq_zero (n : Nat) (c : BitVec 32) (hn : n < 256) (h : c.toInt ≤ (n : ℤ)) : slot n c = 0#1 := by
  have hlt : (BitVec.ofNat 32 n).slt c = false := by
    rw [BitVec.slt_eq_decide, toInt_ofNat_slot n hn, decide_eq_false_iff_not]
    omega
  unfold slot IntOp.cmpi
  simp only [hlt]
  rfl

/-- With a count of at most 200, the mask of a slot from 200 on is 0. -/
theorem mask_tail (n : Nat) (c : BitVec 32) (hn : n < 256) (h200 : 200 ≤ n) (hc : c.toInt ≤ 200) : mask n c = 0 := by
  rw [mask_eq_ite, slot_eq_zero n c hn (by omega), if_neg (by decide)]

/-- A sum over 256 slots whose terms vanish from slot 200 on is the sum of its first 200 terms. -/
theorem sum_256_eq_sum_200 (f : Fin 256 → EReal) (h : ∀ i : Fin 256, 200 ≤ i.val → f i = 0) :
    ∑ i, f i = ∑ i : Fin 200, f ⟨i.val, by omega⟩ := by
  have h1 : ∑ i, f i = ∑ i : Fin 200, f (Fin.castAdd 56 i) + ∑ i : Fin 56, f (Fin.natAdd 200 i) :=
    Fin.sum_univ_add (a := 200) (b := 56) f
  have h2 : ∑ i : Fin 56, f (Fin.natAdd 200 i) = 0 :=
    Finset.sum_eq_zero (fun i _ => h _ (by simp [Fin.natAdd]))
  rw [h1, h2, add_zero]
  rfl

/-- One term of the padded sum on the first 200 slots: the two masks select the logistic term or put 0 in its place. -/
theorem term_eq (x y : EReal) (m n : Nat) (c : BitVec 32) :
    Ideal.logistic ((x - y) * 1) * (mask m c * mask n c)
      = if slot m c = 1#1 ∧ slot n c = 1#1 then Ideal.logistic (x - y) else 0 := by
  rw [mul_one, mask_eq_ite, mask_eq_ite]
  by_cases hm : slot m c = 1#1
  · by_cases hn : slot n c = 1#1
    · rw [if_pos hm, if_pos hn, if_pos ⟨hm, hn⟩, mul_one, mul_one]
    · have hboth : ¬(slot m c = 1#1 ∧ slot n c = 1#1) := fun h => hn h.2
      rw [if_pos hm, if_neg hn, if_neg hboth, mul_zero, mul_zero]
  · have hboth : ¬(slot m c = 1#1 ∧ slot n c = 1#1) := fun h => hm h.1
    rw [if_neg hm, if_neg hboth, zero_mul, mul_zero]

/-- With a count of at most 200, the masked sum over 256 x 256 slots of the zero-padded rows is the sum over the pairs of
    slots in use among the first 200. No entry needs to be finite. -/
theorem padPairSum_eq (pos neg : Fin 200 → EReal) (c : BitVec 32) (hc : c.toInt ≤ 200) :
    padPairSum (padRow pos) (padRow neg) c = pairSum pos neg c := by
  unfold padPairSum pairSum
  rw [sum_256_eq_sum_200]
  · refine Finset.sum_congr rfl (fun i _ => ?_)
    rw [sum_256_eq_sum_200]
    · refine Finset.sum_congr rfl (fun j _ => ?_)
      have hi : padRow pos ⟨i.val, by omega⟩ = pos i := by
        unfold padRow; rw [dif_pos i.isLt]
      have hj : padRow neg ⟨j.val, by omega⟩ = neg j := by
        unfold padRow; rw [dif_pos j.isLt]
      rw [hi, hj]
      exact term_eq (pos i) (neg j) i.val j.val c
    · intro j hj
      rw [mask_tail j.val c j.isLt hj hc, mul_zero, mul_zero]
  · intro i hi
    refine Finset.sum_eq_zero (fun j _ => ?_)
    rw [mask_tail i.val c i.isLt hi hc, zero_mul, mul_zero]

/-- So the two forms of a user's loss agree. -/
theorem padRowLoss_eq (pos neg : Fin 200 → EReal) (c : BitVec 32) (hc : c.toInt ≤ 200) :
    padRowLoss (padRow pos) (padRow neg) c = rowLoss pos neg c := by
  unfold padRowLoss rowLoss
  rw [padPairSum_eq pos neg c hc]

end Cert.Sauc

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Payload.lean ====
/-
  The kernel body's stored value, read at a row of the block.

  The body loads a block of 16 rows of the two padded score arrays and the 16 counts. For row p it forms the 256 x 256
  array of σ((pos i - neg j) · 1), multiplies it by the outer product of the row's 0/1 slot masks (slot s compared with
  the row's count), sums over j and then over i, divides by the square of the count and subtracts from one: the
  padded-form loss of the specification, of row p of the two blocks and the row's count.
-/
import proofs.«106455_j27212912787875_1_alg».proof.Proof.Gen.KernelIdeal.Skeleton
import proofs.«106455_j27212912787875_1_alg».proof.Proof.Spec
import proofs.«106455_j27212912787875_1_alg».proof.Proof.LibRows
import proofs.«106455_j27212912787875_1_alg».proof.Proof.LibLayout

noncomputable section

open scoped BigOperators

namespace Cert.Sauc.Kernel

open Cert.KernelIdeal Cert.KernelIdeal.Gen
open Idealize.ShloMosaic Idealize.ShloMosaic.ValueIdx Cert.Sauc

/-- The logistic of an array, read at an index, is the logistic of the entry. -/
theorem logistic_apply {s : Shape} {φ : FTy} (v : FVec Ideal s φ) (i : s.Idx) :
    logistic v i = Ideal.logistic (v i) := rfl

/-- The 0/1 mask array of a block: at row `p` and slot `s` it is the mask of slot `s` against the row's count. -/
theorem maskArr_apply (c : IVec S16x1 32) (p : Fin 16) (s : Fin 256) :
    (sitofp .f32 (extui 32 (cmpi .slt (iota .tc S16x256 32 [1] iota_S16x256_d1_w32)
        (broadcastTo S16x256 c broadcasts_S16x1_S16x256)) natLt_1_32) : FVec Ideal S16x256 .f32) (ix2 p s)
      = mask s.val (c (ix2 p (0 : Fin 1))) := by
  show (((((IntOp.cmpi .slt (iota .tc S16x256 32 [1] iota_S16x256_d1_w32 (ix2 p s))
      (broadcastTo S16x256 c broadcasts_S16x1_S16x256 (ix2 p s))).setWidth 32).toInt : ℝ) : EReal)) = _
  rw [iota_single_apply, Cert.LibLayout.broadcastTo_a1_ab_apply]
  rfl

/-- The masked logistic of the pairwise differences, at row `p` and the pair of slots `(i, j)`. -/
theorem term_apply (a b m : FVec Ideal S16x256 .f32) (p : Fin 16) (i j : Fin 256) :
    (mulf (logistic (mulf (subf
            (broadcastTo S16x256x256 (shapeCast S16x256x1 a shapeCasts_S16x256_S16x256x1) broadcasts_S16x256x1_S16x256x256)
            (broadcastTo S16x256x256 (shapeCast S16x1x256 b shapeCasts_S16x256_S16x1x256) broadcasts_S16x1x256_S16x256x256))
          (broadcast S16x256x256 (Scalar.ofBits (F := Ideal) .f32 0x3F800000#32))))
      (mulf (broadcastTo S16x256x256 (shapeCast S16x256x1 m shapeCasts_S16x256_S16x256x1) broadcasts_S16x256x1_S16x256x256)
            (broadcastTo S16x256x256 (shapeCast S16x1x256 m shapeCasts_S16x256_S16x1x256) broadcasts_S16x1x256_S16x256x256))
        : FVec Ideal S16x256x256 .f32) (ix3 p i j)
      = Ideal.logistic ((a (ix2 p i) - b (ix2 p j)) * 1) * (m (ix2 p i) * m (ix2 p j)) := by
  simp only [mulf_apply, subf_apply, logistic_apply, broadcast_apply,
    Cert.LibRows.broadcastTo_ab1_abc_apply, Cert.LibRows.broadcastTo_a1c_abc_apply,
    Cert.LibRows.shapeCast_ab_ab1_apply, Cert.LibRows.shapeCast_ab_a1b_apply]
  show Ideal.logistic ((a (ix2 p i) - b (ix2 p j)) * Ideal.ofBits .f32 0x3F800000#32) * _ = _
  rw [ofBits_one]

/-- The block's final arithmetic at row `p`: one minus the quotient of the double sum of a rank-3 array over its
    last two axes by the square of the row's count. The two reductions start from the zero word, which adds nothing. -/
theorem final_apply (t : FVec Ideal S16x256x256 .f32) (c : IVec S16x1 32) (p : Fin 16) (u : Fin 1) :
    (subf (broadcast S16x1 (Scalar.ofBits (F := Ideal) .f32 0x3F800000#32))
      (divf
        (shapeCast S16x1
          (multiReduction .add [1] S16
            (multiReduction .add [2] S16x256 t 0x00000000#32 reduces_S16x256x256_S16x256 (.inl rfl) rfl)
            0x00000000#32 reduces_S16x256_S16 (.inl rfl) rfl)
          shapeCasts_S16_S16x1)
        (mulf (sitofp .f32 c) (sitofp .f32 c))) : FVec Ideal S16x1 .f32) (ix2 p u)
      = 1 - Ideal.div (∑ i : Fin 256, ∑ j : Fin 256, t (ix3 p i j)) (cntR (c (ix2 p u)) * cntR (c (ix2 p u))) := by
  show Ideal.ofBits .f32 0x3F800000#32 - Ideal.div
      (shapeCast S16x1
          (multiReduction .add [1] S16
            (multiReduction .add [2] S16x256 t 0x00000000#32 reduces_S16x256x256_S16x256 (.inl rfl) rfl)
            0x00000000#32 reduces_S16x256_S16 (.inl rfl) rfl)
          shapeCasts_S16_S16x1 (ix2 p u))
      (cntR (c (ix2 p u)) * cntR (c (ix2 p u))) = _
  rw [ofBits_one, Cert.LibLayout.shapeCast_a_a1_apply]
  refine congrArg (fun z => 1 - Ideal.div z (cntR (c (ix2 p u)) * cntR (c (ix2 p u)))) ?_
  refine (Cert.LibRows.rowSum_apply _ _ _ _ _ p).trans ?_
  exact Finset.sum_congr rfl fun i _ => Cert.LibRows.lastSum_apply t _ _ _ _ p i

/-- The stored value at row `p` is the padded-form loss of row `p` of the two score blocks and the row's count. -/
theorem pay_apply (x0 x1 : Vec Ideal S16x256 .f32) (x2 : Vec Ideal S16x1 .i32) (p : Fin 16) (u : Fin 1) :
    k0_pay1 (F := Ideal) x0 x1 x2 (ix2 p u)
      = padRowLoss (fun i => x0 (ix2 p i)) (fun j => x1 (ix2 p j)) (x2 (ix2 p (0 : Fin 1))) := by
  obtain rfl : u = 0 := Subsingleton.elim _ _
  unfold k0_pay1
  refine (final_apply _ _ p 0).trans ?_
  unfold padRowLoss padPairSum
  rw [shapeCast_self x2]
  refine congrArg (fun z => 1 - Ideal.div z (cntR (x2 (ix2 p 0)) * cntR (x2 (ix2 p 0)))) ?_
  refine Finset.sum_congr rfl fun i _ => Finset.sum_congr rfl fun j _ => ?_
  refine (term_apply _ _ _ p i j).trans ?_
  rw [maskArr_apply, maskArr_apply, shapeCast_self x0, shapeCast_self x1]

end Cert.Sauc.Kernel

end
-- ==== Proof.LibPadRight.lean ====
/-
  A two-axis array padded on the right of its second axis, read at coordinates.

  Padding [a, b] with `hi` entries after each row and nothing elsewhere gives [a, b + hi]; entry (r, l) of the result is
  entry (r, l) of the operand where l < b and the padding value beyond.
-/
import Idealize.ShloMosaic.Lib.Pipeline.Value
import Idealize.ShloMosaic.Lib.ValueIdx

namespace Cert.Lib.PadRight

open Idealize.ShloMosaic Idealize.ShloMosaic.ValueIdx

/-- An [a, b] array padded on the right of its second axis to [a, b'], read at (r, l): the entry (r, l) where l < b,
    the padding value beyond. -/
theorem pad_right_apply {α : Type} {a b b' hi : ℕ} (x : (⟨2, ![a, b]⟩ : Shape).Idx → α) {u : Shape} (v : u.Idx → α)
    (h : (⟨2, ![a, b]⟩ : Shape).Pads (![0, 0] : Fin 2 → Nat) ![0, hi] ![0, 0] ⟨2, ![a, b']⟩) (hu : 0 < u.numel)
    (r : Fin a) (l : Fin b') :
    pad ⟨2, ![a, b']⟩ ![0, 0] ![0, hi] ![0, 0] x v h hu (ix2 r l)
      = if hl : l.val < b then x (ix2 r ⟨l.val, hl⟩) else v (Shape.Idx.first hu) := by
  unfold pad
  by_cases hl : l.val < b
  · rw [dif_pos hl, dif_pos (fun ax => by
      match ax with
      | ⟨0, _⟩ => exact ⟨Nat.zero_le _, Nat.mod_one _, by show (r.val - 0) / 1 < a; have := r.isLt; omega⟩
      | ⟨1, _⟩ => exact ⟨Nat.zero_le _, Nat.mod_one _, by show (l.val - 0) / 1 < b; omega⟩)]
    refine congrArg x (funext fun ax => Fin.ext ?_)
    match ax with
    | ⟨0, _⟩ => show (r.val - 0) / 1 = r.val; omega
    | ⟨1, _⟩ => show (l.val - 0) / 1 = l.val; omega
  · rw [dif_neg hl, dif_neg]
    intro hin
    have h2 : (l.val - 0) / 1 < b := (hin 1).2.2
    exact hl (by omega)

end Cert.Lib.PadRight
-- ==== Proof.HostPre.lean ====
/-
  The arrays the kernel's windows read, as the region finds them.

  Before the region the host pads each score array [4096, 200] with zeros on the right of its second axis to
  [4096, 256] and views the count vector [4096] as a column [4096, 1]. So row r of a padded array is row r of the
  score array followed by 56 zeros, and entry (r, 0) of the column is the count of user r.
-/
import proofs.«106455_j27212912787875_1_alg».proof.Proof.Gen.KernelIdeal.Frame
import proofs.«106455_j27212912787875_1_alg».proof.Proof.Spec
import proofs.«106455_j27212912787875_1_alg».proof.Proof.LibLayout
import proofs.«106455_j27212912787875_1_alg».proof.Proof.LibPadRight
import Idealize.ShloMosaic.Lib.StableHlo.Run
import Idealize.ShloMosaic.Lib.Pipeline.Value

noncomputable section
namespace Cert.Sauc.Kernel
open Cert.KernelIdeal Cert.KernelIdeal.Gen
open Idealize.ShloMosaic Idealize.ShloMosaic.TcCoe Idealize.ShloMosaic.ValueIdx Idealize.ShloMosaic.StableHlo Idealize.SL.Sem Cert.Sauc

variable (m : (ℓ : Loc nD τ sig) → Buf (Elt Ideal) ℓ)

/-- The count column as the region finds it: the count vector viewed as [4096, 1]. -/
theorem V_v2 (c : Dev nD) : (V m c main_v2 : S4096x1.Idx → BitVec 32) = shapeCast S4096x1 (m ((c : Thread nD τ).loc main_arg2)) shapeCasts_S4096_S4096x1 := by
  dsimp only [V, V0]
  simp only [hostOps0, hostOps0_1, hostOps0_2, hostOps0_3, hostOps0_4, List.flatten_cons, List.flatten_nil, List.append_nil, List.cons_append, List.nil_append]
  after_results
  rfl

/-- The padded positive scores as the region finds them: the score array padded with the number the integer 0 converts to. -/
theorem V_v0 (c : Dev nD) : (V m c main_v0 : S4096x256.Idx → EReal) = pad S4096x256 ![0, 0] ![0, 56] ![0, 0] (m ((c : Thread nD τ).loc main_arg0)) (sitofp (F := Ideal) .f32 (constantI S_ 32 0#32)) pads_S4096x200_S4096x256_000_0560 h_S_ := by
  dsimp only [V, V0]
  simp only [hostOps0, hostOps0_1, hostOps0_2, hostOps0_3, hostOps0_4, List.flatten_cons, List.flatten_nil, List.append_nil, List.cons_append, List.nil_append]
  after_results
  rfl

/-- The padded negative scores likewise. -/
theorem V_v1 (c : Dev nD) : (V m c main_v1 : S4096x256.Idx → EReal) = pad S4096x256 ![0, 0] ![0, 56] ![0, 0] (m ((c : Thread nD τ).loc main_arg1)) (sitofp (F := Ideal) .f32 (constantI S_ 32 0#32)) pads_S4096x200_S4096x256_000_0560 h_S_ := by
  dsimp only [V, V0]
  simp only [hostOps0, hostOps0_1, hostOps0_2, hostOps0_3, hostOps0_4, List.flatten_cons, List.flatten_nil, List.append_nil, List.cons_append, List.nil_append]
  after_results
  rfl

/-- The padding value is zero. -/
theorem pad_value (j : S_.Idx) : (sitofp (F := Ideal) .f32 (constantI S_ 32 0#32) : S_.Idx → EReal) j = 0 := by
  show (((0#32 : BitVec 32).toInt : ℝ) : EReal) = 0
  simp

/-- Row r of the padded positive scores is row r of the scores followed by zeros. -/
theorem V_v0_apply (c : Dev nD) (r : Fin 4096) (l : Fin 256) :
    (V m c main_v0 : S4096x256.Idx → EReal) (ix2 r l) = padRow (fun i => (m ((c : Thread nD τ).loc main_arg0) : S4096x200.Idx → EReal) (ix2 r i)) l := by
  rw [V_v0, Cert.Lib.PadRight.pad_right_apply]
  unfold padRow
  split
  · rfl
  · exact pad_value _

/-- Row r of the padded negative scores likewise. -/
theorem V_v1_apply (c : Dev nD) (r : Fin 4096) (l : Fin 256) :
    (V m c main_v1 : S4096x256.Idx → EReal) (ix2 r l) = padRow (fun i => (m ((c : Thread nD τ).loc main_arg1) : S4096x200.Idx → EReal) (ix2 r i)) l := by
  rw [V_v1, Cert.Lib.PadRight.pad_right_apply]
  unfold padRow
  split
  · rfl
  · exact pad_value _

/-- Entry (r, 0) of the count column is the count of user r. -/
theorem V_v2_apply (c : Dev nD) (r : Fin 4096) (u : Fin 1) :
    (V m c main_v2 : S4096x1.Idx → BitVec 32) (ix2 r u) = (m ((c : Thread nD τ).loc main_arg2) : S4096.Idx → BitVec 32) (ix1 r) := by
  rw [V_v2]
  exact Cert.LibLayout.shapeCast_a_a1_apply _ _ r u

end Cert.Sauc.Kernel
end
-- ==== Proof.Blocks.lean ====
/-
  From the blocks to the whole output array.

  Grid point t handles the 16 users 16·t … 16·t + 15: it reads rows 16·t + p of the two padded score arrays and of the
  count column and writes the padded-form loss of user 16·t + p to entry (16·t + p, 0) of the output column. The 256
  blocks tile the column, so after the run entry (r, 0) holds the padded-form loss of user r.
-/
import proofs.«106455_j27212912787875_1_alg».proof.Proof.Gen.KernelIdeal.Frame
import proofs.«106455_j27212912787875_1_alg».proof.Proof.Spec
import proofs.«106455_j27212912787875_1_alg».proof.Proof.Payload
import proofs.«106455_j27212912787875_1_alg».proof.Proof.HostPre
import Idealize.ShloMosaic.Lib.Pipeline.Value

set_option maxRecDepth 16384

noncomputable section

open scoped BigOperators

namespace Cert.Sauc.Kernel

open Cert.KernelIdeal Cert.KernelIdeal.Gen
open Idealize.ShloMosaic Idealize.ShloMosaic.TcCoe Idealize.ShloMosaic.ValueIdx Idealize.SL.Sem Cert.Sauc
open Idealize.ShloMosaic.Pipeline (Dat)

variable (m : (ℓ : Loc nD τ sig) → Buf (Elt Ideal) ℓ)

/-- The padded-form loss of user `r`, from the arrays as the region finds them. -/
def userLoss (c : Dev nD) (r : Fin 4096) : EReal :=
  padRowLoss (fun l => (V m c main_v0 : S4096x256.Idx → EReal) (ix2 r l)) (fun l => (V m c main_v1 : S4096x256.Idx → EReal) (ix2 r l))
    ((V m c main_v2 : S4096x1.Idx → BitVec 32) (ix2 r (0 : Fin 1)))

/-- The output column: entry (r, u) is the loss of user r. -/
def lossColumn (c : Dev nD) : S4096x1.Idx → EReal := fun i => userLoss m c (i 0)

/-- The offsets of every access of the body are zero: it loads and stores whole blocks. -/
theorem hz : (![0, 0] : Fin 2 → Nat) = fun _ => 0 := funext fun a => by fin_cases a <;> rfl

/-- The padded-form loss depends only on the values of its rows and its count. -/
theorem padRowLoss_congr {X X' Y Y' : Fin 256 → EReal} {k k' : BitVec 32} (hX : ∀ l, X l = X' l) (hY : ∀ l, Y l = Y' l)
    (hk : k = k') : padRowLoss X Y k = padRowLoss X' Y' k' := by
  obtain rfl : X = X' := funext hX
  obtain rfl : Y = Y' := funext hY
  rw [hk]

/-- The block index maps over the grid: every window's block at point t is block (t, 0), and t ranges over 0 … 255. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (0 : Fin 2) ≤ 255
    ∧ win0_3.index t (1 : Fin 2) = 0 :=
  (by decide +kernel : ∀ t : Fin grid0.N, _)

/-- Every block of the column is some point's. -/
theorem idx_onto : ∀ q : Fin 256, ∃ t : Fin cfg0.N, win0_3.index t = ![q.val, 0] :=
  (by decide +kernel : ∀ q : Fin 256, ∃ t : Fin grid0.N, win0_3.index t = ![q.val, 0])

/-- What point `t` writes back is block `t` of the column of the users' losses: the body's stored value at row p is the
    loss of user 16·t + p, because every input block at point t is rows 16·t … 16·t + 15 of its array. -/
theorem flushed_eq (c : Dev nD) (t : Fin cfg0.N) :
    (dats m 0 c).flushed 3 t = ((cfg0.win 3).blk t).view.read (Elt Ideal) (lossColumn m c) := by
  show (cfg0.win 3).cut (grid0.coords t) ((dats m 0 c).after 3 t) = _
  rw [after0_3]
  unfold out0_3
  rw [View.canon_unit_zero hz]
  simp only [View.ld_unit_zero (S := S16x256) hz, View.ld_unit_zero (S := S16x1) hz]
  funext j
  obtain ⟨e0, e1, e2, e3, e4, e5, e6, e7⟩ := idx_facts t
  show k0_pay1 (F := Ideal) (iblk m c 0 t) (iblk m c 1 t) (iblk m c 2 t) j = lossColumn m c (((cfg0.win 3).blk t).view.emb j)
  obtain ⟨p, u, rfl⟩ : ∃ (p : Fin 16) (u : Fin 1), j = ix2 p u := ⟨j 0, j 1, eq_ix2 j⟩
  refine (pay_apply (iblk m c 0 t) (iblk m c 1 t) (iblk m c 2 t) p u).trans ?_
  unfold lossColumn userLoss
  refine padRowLoss_congr (fun l => ?_) (fun l => ?_) ?_
  · show (V m c main_v0 : S4096x256.Idx → EReal) (((cfg0.win 0).blk t).view.emb (ix2 p l)) = _
    refine congrArg _ (funext fun a => Fin.ext ?_)
    match a with
    | ⟨0, _⟩ => show win0_0.index t (0 : Fin 2) * 16 + 1 * p.val = win0_3.index t (0 : Fin 2) * 16 + 1 * p.val; omega
    | ⟨1, _⟩ => show win0_0.index t (1 : Fin 2) * 256 + 1 * l.val = l.val; omega
  · show (V m c main_v1 : S4096x256.Idx → EReal) (((cfg0.win 1).blk t).view.emb (ix2 p l)) = _
    refine congrArg _ (funext fun a => Fin.ext ?_)
    match a with
    | ⟨0, _⟩ => show win0_1.index t (0 : Fin 2) * 16 + 1 * p.val = win0_3.index t (0 : Fin 2) * 16 + 1 * p.val; omega
    | ⟨1, _⟩ => show win0_1.index t (1 : Fin 2) * 256 + 1 * l.val = l.val; omega
  · show (V m c main_v2 : S4096x1.Idx → BitVec 32) (((cfg0.win 2).blk t).view.emb (ix2 p (0 : Fin 1))) = _
    refine congrArg _ (funext fun a => Fin.ext ?_)
    match a with
    | ⟨0, _⟩ => show win0_2.index t (0 : Fin 2) * 16 + 1 * p.val = win0_3.index t (0 : Fin 2) * 16 + 1 * p.val; omega
    | ⟨1, _⟩ => show win0_2.index t (1 : Fin 2) * 1 + 1 * 0 = 0; omega

/-- An index of the column is in point `t`'s block iff each coordinate is in the block's range on its axis. -/
theorem mem_blk (t : Fin cfg0.N) (i : S4096x1.Idx) :
    i ∈ ((cfg0.win 3).blk t).view.set ↔ ∀ a : Fin 2, win0_3.index t a * S16x1.size a ≤ (i a).val ∧ (i a).val < win0_3.index t a * S16x1.size a + S16x1.size a := by
  show i ∈ ((View.whole main_v3).slice (win0_3.rect t)).set ↔ _
  rw [View.set_slice_whole, Rect.mem_set_unit]
  exact Iff.rfl

/-- Entry (r, 0) of the column lies in the block of point r / 16. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ := idx_onto ⟨(i 0).val / 16, by omega⟩
  have q0 : win0_3.index t (0 : Fin 2) = (i 0).val / 16 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 1 ≤ (i 1).val ∧ (i 1).val < win0_3.index t (1 : Fin 2) * 1 + 1; omega

/-- After the run the output column holds every user's loss. -/
theorem final (c : Dev nD) : (dats m 0 c).arrAt 3 cfg0.N = lossColumn m c :=
  (dats m 0 c).arrAt_eq_of_cover 3 (lossColumn m c) (fun t _ => flushed_eq m c t) cover

/-- The loss of user `r` in terms of the argument arrays: the padded form over row r of the scores, zero-padded, and
    the count of user r. -/
theorem userLoss_eq (c : Dev nD) (r : Fin 4096) :
    userLoss m c r = padRowLoss (padRow fun i => (m ((c : Thread nD τ).loc main_arg0) : S4096x200.Idx → EReal) (ix2 r i))
      (padRow fun i => (m ((c : Thread nD τ).loc main_arg1) : S4096x200.Idx → EReal) (ix2 r i))
      ((m ((c : Thread nD τ).loc main_arg2) : S4096.Idx → BitVec 32) (ix1 r)) := by
  unfold userLoss
  exact padRowLoss_congr (fun l => V_v0_apply m c r l) (fun l => V_v1_apply m c r l) (V_v2_apply m c r 0)

end Cert.Sauc.Kernel

end
-- ==== Proof.Tail.lean ====
/-
  The kernel program's result.

  After the region the host adds up the output column (from zero) and divides by 4096. The column holds every user's
  padded-form loss, which under the count bound is the user's loss; so the result is the specification's mean loss of the
  argument arrays.
-/
import proofs.«106455_j27212912787875_1_alg».proof.Proof.Gen.KernelIdeal.Frame
import proofs.«106455_j27212912787875_1_alg».proof.Proof.Spec
import proofs.«106455_j27212912787875_1_alg».proof.Proof.Law
import proofs.«106455_j27212912787875_1_alg».proof.Proof.Blocks
import proofs.«106455_j27212912787875_1_alg».proof.Proof.LibAxisSums
import Idealize.ShloMosaic.Lib.StableHlo.Run
import Idealize.ShloMosaic.Lib.Pipeline.Value
import Idealize.ShloMosaic.PureOps.Ideal.Laws

set_option maxRecDepth 16384

noncomputable section

open scoped BigOperators

namespace Cert.Sauc.Kernel

open Cert.KernelIdeal Cert.KernelIdeal.Gen
open Idealize.ShloMosaic Idealize.ShloMosaic.TcCoe Idealize.ShloMosaic.ValueIdx Idealize.ShloMosaic.StableHlo Idealize.SL.Sem Cert.Sauc
open Idealize.ShloMosaic.Pipeline (Dat)

variable (m : (ℓ : Loc nD τ sig) → Buf (Elt Ideal) ℓ)

/-- The host lines after the region leave, in the result buffer, the sum of the users' padded-form losses over 4096. -/
theorem tail_eq (c : Dev nD) :
    (Pipeline.afterTail₀ cfgs (dats m) 0 (V0 m) [hostOps1] c main_v5 : S_.Idx → EReal)
      = fun _ => Ideal.div (∑ r : Fin 4096, userLoss m c r) (Ideal.ofBits .f32 0x45800000#32) := by
  unfold Pipeline.afterTail₀
  show StableHlo.after hostOps1 _ (Proc.devRef .tc main_v5) = _
  after_results
  have hcol : Pipeline.withArrays (cfgs 0).spec c (V0 m c) (fun w => (dats m 0 c).arrAt w (cfgs 0).N) (Proc.devRef .tc main_v3)
      = lossColumn m c :=
    (Pipeline.withArrays_arr spec0 launch0.win.arr_inj c _ _ 3).trans (final m c)
  rw [hcol]
  funext i
  show Ideal.div (Host.reduceAdd (F := Ideal) (lossColumn m c) (constant S_ .f32 0x00000000#32) reducesTo_S4096x1_S_d0_1 h_S_ i)
    (Ideal.ofBits .f32 0x45800000#32) = _
  refine congrArg (fun z => Ideal.div z (Ideal.ofBits .f32 0x45800000#32)) ?_
  simp only [Host.reduceAdd, Ideal.hostReduceAdd_def]
  rw [Ideal.hostReduceAdd_total reducesTo_S4096x1_S_d0_1 (fun b => b.elim0) (lossColumn m c) _ i, Cert.Lib.AxisSums.sum_column]
  show Ideal.ofBits .f32 0x00000000#32 + _ = _
  rw [Ideal.ofBits_zero_f32, zero_add]
  rfl

/-- Under the count bound the sum of the padded-form losses over 4096 is the mean loss of the argument arrays. -/
theorem mean_eq (c : Dev nD) (hcnt : ∀ b, ((m ((c : Thread nD τ).loc main_arg2) : S4096.Idx → BitVec 32) b).toInt ≤ 200) :
    Ideal.div (∑ r : Fin 4096, userLoss m c r) (Ideal.ofBits .f32 0x45800000#32)
      = meanLoss (m ((c : Thread nD τ).loc main_arg0)) (m ((c : Thread nD τ).loc main_arg1)) (m ((c : Thread nD τ).loc main_arg2)) := by
  unfold meanLoss
  refine congrArg (fun z => Ideal.div z (Ideal.ofBits .f32 0x45800000#32)) (Finset.sum_congr rfl fun r _ => ?_)
  rw [userLoss_eq]
  exact padRowLoss_eq _ _ _ (hcnt (ix1 r))

/-- The kernel program's run: every weakly fair execution terminates with the result buffer at the mean loss of the
    argument arrays, and the argument arrays unchanged. -/
theorem run (ρ : Dev nD → PrngReg)
    (hcnt : ∀ (c : Dev nD) b, ((m ((c : Thread nD τ).loc main_arg2) : S4096.Idx → BitVec 32) b).toInt ≤ 200) :
    θ_run defs (onTc (τ := τ) (main (F := Ideal))) ⟨m, fun _ => 0, ρ⟩ fun r => ∀ c : Dev nD,
      r.2.mem ((c.tc : Thread nD τ).loc main_v5)
          = (fun _ => meanLoss (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v5 (Pipeline.mem_restRefs_of main_v5 (by decide) (by decide))).trans (tail_eq m c)).trans
        (funext fun _ => mean_eq m c (hcnt c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Sauc.Kernel

end
-- ==== Proof.lean ====
/-
  Pairwise sigmoid-AUC loss: the kernel against its reference, on the extended reals.

  Both programs compute, from two score arrays [4096, 200] and a count per user, the mean over the users of
      1 - (∑ over the pairs (i, j) of slots in use of σ(pos i - neg j)) / (c · c),
  σ the logistic function and slot n in use when n < c (the specification, Spec.lean).

  The reference does it directly: it selects σ(pos i - neg j) or zero by the two slots' comparisons, spells σ as
  1 / (1 + exp(-x)) and divides the difference by one first, which changes nothing (RefValue.lean).

  The kernel pads each row of scores with zeros to 256 slots, handles 16 users per grid point, multiplies each
  σ((pos i - neg j) · 1) by the product of the two slots' 0/1 masks and sums over 256 x 256 (Payload.lean: the stored
  value at a row; HostPre.lean: the padded arrays; Blocks.lean: the output column after the run; Tail.lean: the sum of the
  column over 4096). A slot from 200 on is in use only for a count above 200. The precondition bounds every count by 200
  (PreFacts.lean), so those slots' masks vanish and with them their terms, since x · 0 = 0 for every extended real x; on
  the first 200 slots a mask product 1 keeps the term (x · 1 = x) and a mask product 0 puts zero in its place, as the
  reference's selection does (Law.lean). No finiteness of the scores is needed.

  The three frames are the generated ones (the reference's its generated run with the result dropped); the
  idealization rewrote no operation of the kernel, so the preservation conjunct is trivial.
-/
import proofs.«106455_j27212912787875_1_alg».proof.Defs
import proofs.«106455_j27212912787875_1_alg».proof.Proof.Gen.Kernel
import proofs.«106455_j27212912787875_1_alg».proof.Proof.Gen.Kernel.Frame
import proofs.«106455_j27212912787875_1_alg».proof.Proof.Gen.KernelIdeal
import proofs.«106455_j27212912787875_1_alg».proof.Proof.Gen.KernelIdeal.Frame
import proofs.«106455_j27212912787875_1_alg».proof.Proof.Gen.ReferenceIdeal
import proofs.«106455_j27212912787875_1_alg».proof.Proof.Gen.Pre_finite_inputs
import proofs.«106455_j27212912787875_1_alg».proof.Proof.Gen.ReferenceIdeal.Run
import proofs.«106455_j27212912787875_1_alg».proof.Proof.Gen.ReferenceIdeal.Read
import proofs.«106455_j27212912787875_1_alg».proof.Proof.Spec
import proofs.«106455_j27212912787875_1_alg».proof.Proof.PreFacts
import proofs.«106455_j27212912787875_1_alg».proof.Proof.RefValue
import proofs.«106455_j27212912787875_1_alg».proof.Proof.Tail
import Idealize.ShloMosaic.Adequacy
import Idealize.ShloMosaic.Init

noncomputable section

namespace Cert.Proof

open Idealize.ShloMosaic Idealize.SL.Sem Cert.Sauc

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, under the precondition, both idealized programs end with the mean loss of
    the argument arrays in their result buffers. -/
theorem algebraic : Cert.algebraic_KernelIdeal_ReferenceIdeal := by
  intro m ρ m' ρ' hpre hagree
  refine ⟨fun c => fun _ => meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact Cert.Sauc.Kernel.run m ρ (fun c => Cert.Sauc.Pre.pre_counts _ _ _ (hpre c))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, Cert.Sauc.Ref.ref_eq, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
